-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S1024x64 : Shape := ⟨2, ![1024, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  main_v17

def fn {F : FTy → Type} [FloatOps F] (main_arg0 : FVec F S16384x64 .f32) (main_arg1 : FVec F S1024x64 .f32) (main_arg2 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_cst_4 : FVec F S_ .f32 := constant S_ .f32 0x00000000#32
  let main_v14 : FVec F S64 .f32 := broadcastInDim S64 ![] bcast_S_S64 main_cst_4
  let main_v15 : IVec S64 1 := cmpf .une main_arg2 main_v14
  let main_c_5 : IVec S_ 1 := constantI S_ 1 1#1
  fn_part1 (F := F) main_v13 main_v15 main_c_5
-- ==== Kernel.lean ====
abbrev S16384x64 : Shape := ⟨2, ![16384, 64]⟩
abbrev S1024x64 : Shape := ⟨2, ![1024, 64]⟩
abbrev S64 : Shape := ⟨1, ![64]⟩
abbrev S1x64 : Shape := ⟨2, ![1, 64]⟩
abbrev S_ : Shape := ⟨0, ![]⟩
abbrev S1024 : Shape := ⟨1, ![1024]⟩
abbrev S1x1024 : Shape := ⟨2, ![1, 1024]⟩
abbrev S16384x1024 : Shape := ⟨2, ![16384, 1024]⟩
abbrev S1024x1024 : Shape := ⟨2, ![1024, 1024]⟩
abbrev S1024x1 : Shape := ⟨2, ![1024, 1]⟩

abbrev nBuf : Space → Nat
  | .hbm => 15
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S64, .f32⟩
  | .hbm, ⟨3, _⟩ => ⟨S1x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024x64, .bf16⟩
  | .hbm, ⟨14, _⟩ => ⟨S16384x1024, .f32⟩
  | .local _ .vmem, ⟨0, _⟩ => ⟨S1024x64, .f32⟩
  | .local _ .vmem, ⟨1, _⟩ => ⟨S1024x64, .f32⟩
  | .local _ .vmem, ⟨2, _⟩ => ⟨S64, .f32⟩
  | .local _ .vmem, ⟨3, _⟩ => ⟨S1024x64, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  reducesTo_S1024x64_S1024_d1 : S1024x64.ReducesTo [1] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bitsLt_bf16_f32 : FTy.bits .bf16 < FTy.bits .f32
  inb_S64_S64_0 : ∀ a, (![0] : Fin 1 → Nat) a + S64.size a ≤ S64.size a
  h_S64 : 0 < S64.numel
  inb_S1024x64_S1024x64_0_0 : ∀ a, (![0, 0] : Fin 2 → Nat) a + S1024x64.size a ≤ S1024x64.size a
  h_S1024x64 : 0 < S1024x64.numel
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  shapeCasts_S1024x64_S1024x64 : S1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .bf16 = 32 ∨ (Rect.block (s := S1024x64) S1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S1024x64 : Shape := ⟨2, ![1024, 64]⟩
abbrev S64 : Shape := ⟨1, ![64]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S64, .f32⟩
  | .hbm, ⟨3, _⟩ => ⟨S1x64, .f32⟩
  | .hbm, ⟨4, _⟩ => ⟨S16384x64, .f32⟩
  | .hbm, ⟨5, _⟩ => ⟨S16384x64, .f32⟩
  | .hbm, ⟨6, _⟩ => ⟨S1x64, .f32⟩
  | .hbm, ⟨7, _⟩ => ⟨S1024x64, .f32⟩
  | .hbm, ⟨8, _⟩ => ⟨S1024x64, .f32⟩
  | .hbm, ⟨9, _⟩ => ⟨S16384x64, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S1024x64, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S1x64_S1024x64_0_1 : S1x64.BroadcastsInDim S1024x64 (![0, 1] : Fin 2 → Fin S1024x64.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S1024x64_S1024_d1 : S1024x64.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x64_S1024x64_S16384x1024_1_1_0_0_n_n_wf : DotDims.WF S16384x64 S1024x64 S16384x1024 [1] [1] [0] [0] [] []

variable [Facts₀]

def dot_S16384x64_S1024x64_S16384x1024_1_1_0_0_n_n : DotDims S16384x64 S1024x64 S16384x1024 where
  lhsContracting := [1]
  rhsContracting := [1]
  lhsNonContracting := [0]
  rhsNonContracting := [0]
  lhsBatch := []
  rhsBatch := []
  wf := dot_S16384x64_S1024x64_S16384x1024_1_1_0_0_n_n_wf

class Facts : Prop extends Facts₀ where

variable [Facts]
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.Consts.lean ====
/-
  The four float words the two programs spell, as the extended reals they denote: zero, a quarter, minus a half and two.
  Each is an exact dyadic, so scaling by it is exact real arithmetic.
-/
import Idealize.ShloMosaic.PureOps.Ideal
import Idealize.ShloMosaic.PureOps.Ideal.Laws

noncomputable section

namespace Cert.Ncm.Consts

open Idealize.ShloMosaic

/-- The word of `0.25` denotes the real 1/4. -/
theorem ofBits_quarter : Ideal.ofBits .f32 0x3E800000#32 = ((1 / 4 : ℝ) : EReal) := by
  simp [Ideal.ofBits, Ideal.ieee, -EReal.coe_mul]; norm_num

/-- The word of `-0.5` denotes the real -1/2. -/
theorem ofBits_neg_half : Ideal.ofBits .f32 0xBF000000#32 = ((-(1 / 2) : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

end Cert.Ncm.Consts

end
-- ==== Proof.Spec.lean ====
/-
  The specification. For one query row and one centroid row, both already divided feature by feature by the
  temperature, the result is minus half their Euclidean distance, the squared distance written out as
  |a|² + |b|² - 2 a·b and clipped at zero before the root. The reference computes exactly that arrangement; the
  kernel computes a quarter of the squared distance — a quarter of each squared norm, and the cross term from the
  row scaled by minus a half — and takes the root of that, which is already half the distance. On real rows the two
  arrangements are one number: the quarter leaves the clip alone because it is positive, and the root of s/4 is half
  the root of s. On the extended reals the rearrangement is not valid (an infinite row makes the two sides add
  infinities of opposite sign in different orders), which is why the law is stated for real rows only.
-/
import proofs.«116002_j65549790871957_2_alg».proof.Proof.Consts
import Idealize.ShloMosaic.Lib.ValueIdx

noncomputable section

namespace Cert.Ncm

open Idealize.ShloMosaic Idealize.ShloMosaic.ValueIdx

/-- Row `n` of an array with 64 features, each feature divided by its temperature. -/
def scaled {N : ℕ} (x : (⟨2, ![N, 64]⟩ : Shape).Idx → EReal) (T : (⟨1, ![64]⟩ : Shape).Idx → EReal) (n : Fin N) :
    Fin 64 → EReal := fun k => Ideal.div (x (ix2 n k)) (T (ix1 k))

/-- The reference's arrangement for two scaled rows: -√max(|a|² + |b|² - 2 a·b, 0) / 2, each host sum started from its
    zero word. -/
def refForm (a b : Fin 64 → EReal) : EReal :=
  Ideal.div (-(Ideal.sqrt (max
      (((Ideal.ofBits .f32 0x00000000#32 + ∑ k, a k * a k) + (Ideal.ofBits .f32 0x00000000#32 + ∑ k, b k * b k))
        - Ideal.ofBits .f32 0x40000000#32 * ∑ k, a k * b k)
      (Ideal.ofBits .f32 0x00000000#32))))
    (Ideal.ofBits .f32 0x40000000#32)

/-- The kernel's arrangement: 0 - √max(|a|²/4 + |b|²/4 + (-a/2)·b, 0); the centroid's squared norm is a host sum
    (started from the zero word), the other two sums are the body's. -/
def kerForm (a b : Fin 64 → EReal) : EReal :=
  Ideal.ofBits .f32 0x00000000#32 - Ideal.sqrt (max
      ((Ideal.ofBits .f32 0x3E800000#32 * (∑ k, a k * a k)
          + Ideal.ofBits .f32 0x3E800000#32 * (Ideal.ofBits .f32 0x00000000#32 + ∑ k, b k * b k))
        + ∑ k, (Ideal.ofBits .f32 0xBF000000#32 * a k) * b k)
      (Ideal.ofBits .f32 0x00000000#32))

/-- The whole result array: entry (n, j) is the reference's arrangement of query row n and centroid row j. -/
def G (x : (⟨2, ![16384, 64]⟩ : Shape).Idx → EReal) (c : (⟨2, ![1024, 64]⟩ : Shape).Idx → EReal)
    (T : (⟨1, ![64]⟩ : Shape).Idx → EReal) : (⟨2, ![16384, 1024]⟩ : Shape).Idx → EReal :=
  fun i => refForm (scaled x T (i 0)) (scaled c T (i 1))

/-- A finite sum of real terms, taken in the extended reals, is the real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The coercion of the reals into the extended reals is monotone, so it commutes with a maximum. -/
theorem coe_max (x y : ℝ) : ((max x y : ℝ) : EReal) = max (x : EReal) (y : EReal) :=
  EReal.coe_strictMono.monotone.map_max

/-- Over the reals: √max(s/4, 0) is half of √max(s, 0). -/
theorem sqrt_clip_quarter (s : ℝ) : Real.sqrt (max (s * (1 / 2) ^ 2) 0) = Real.sqrt (max s 0) * (1 / 2) := by
  have h : max (s * (1 / 2 : ℝ) ^ 2) 0 = max s 0 * (1 / 2) ^ 2 := by
    rw [max_mul_of_nonneg _ _ (by positivity), zero_mul]
  rw [h, Real.sqrt_mul (le_max_right _ _), Real.sqrt_sq (by norm_num)]

/-- THE LAW: on real rows the kernel's arrangement and the reference's are the same number. -/
theorem kerForm_eq_refForm (a b : Fin 64 → ℝ) :
    kerForm (fun k => ((a k : ℝ) : EReal)) (fun k => ((b k : ℝ) : EReal))
      = refForm (fun k => ((a k : ℝ) : EReal)) (fun k => ((b k : ℝ) : EReal)) := by
  unfold kerForm refForm
  rw [Ideal.ofBits_zero_f32, Consts.ofBits_quarter, Consts.ofBits_neg_half, Consts.ofBits_two,
    Ideal.div_coe (by norm_num : (2 : ℝ) ≠ 0)]
  simp only [zero_add, ← EReal.coe_mul, coe_sum, ← EReal.coe_add, ← EReal.coe_sub]
  rw [← EReal.coe_zero, ← coe_max, ← coe_max, Ideal.sqrt_coe, Ideal.sqrt_coe,
    if_neg (not_lt.2 (le_max_right _ _)), if_neg (not_lt.2 (le_max_right _ _)),
    ← EReal.coe_sub, ← EReal.coe_neg, ← EReal.coe_mul, EReal.coe_eq_coe_iff]
  have hK : (1 / 4 * ∑ k, a k * a k + 1 / 4 * ∑ k, b k * b k) + ∑ k, (-(1 / 2) * a k) * b k
      = ((∑ k, a k * a k) + (∑ k, b k * b k) - 2 * ∑ k, a k * b k) * (1 / 2) ^ 2 := by
    have : ∑ k, (-(1 / 2) * a k) * b k = -(1 / 2) * ∑ k, a k * b k := by
      rw [Finset.mul_sum]; exact Finset.sum_congr rfl fun k _ => by ring
    rw [this]; ring
  rw [hK, sqrt_clip_quarter]
  ring

/-- A row of real numbers divided by real, nonzero temperatures is a row of real numbers. -/
theorem scaled_real {N : ℕ} (x : (⟨2, ![N, 64]⟩ : Shape).Idx → EReal) (T : (⟨1, ![64]⟩ : Shape).Idx → EReal)
    (hx : ∀ i, ∃ r : ℝ, x i = (r : EReal)) (hT : ∀ i, ∃ r : ℝ, T i = (r : EReal)) (hT0 : ∀ i, T i ≠ 0) (n : Fin N) :
    ∃ a : Fin 64 → ℝ, scaled x T n = fun k => ((a k : ℝ) : EReal) := by
  have h : ∀ k : Fin 64, ∃ a : ℝ, scaled x T n k = (a : EReal) := fun k => by
    obtain ⟨r, hr⟩ := hx (ix2 n k)
    obtain ⟨s, hs⟩ := hT (ix1 k)
    have hs0 : s ≠ 0 := fun e => hT0 (ix1 k) (by rw [hs, e]; rfl)
    refine ⟨r * (1 / s), ?_⟩
    unfold scaled
    rw [hr, hs, Ideal.div_coe hs0, ← EReal.coe_mul]
  choose a ha using h
  exact ⟨a, funext ha⟩

/-- So on real arrays with no zero temperature the kernel's arrangement of query row n and centroid row j is entry
    (n, j) of the specification. -/
theorem kerForm_eq_G (x : (⟨2, ![16384, 64]⟩ : Shape).Idx → EReal) (c : (⟨2, ![1024, 64]⟩ : Shape).Idx → EReal)
    (T : (⟨1, ![64]⟩ : Shape).Idx → EReal) (hx : ∀ i, ∃ r : ℝ, x i = (r : EReal)) (hc : ∀ i, ∃ r : ℝ, c i = (r : EReal))
    (hT : ∀ i, ∃ r : ℝ, T i = (r : EReal)) (hT0 : ∀ i, T i ≠ 0) (n : Fin 16384) (j : Fin 1024) :
    kerForm (scaled x T n) (scaled c T j) = G x c T (ix2 n j) := by
  obtain ⟨a, ha⟩ := scaled_real x T hx hT hT0 n
  obtain ⟨b, hb⟩ := scaled_real c T hc hT hT0 j
  show _ = refForm (scaled x T n) (scaled c T j)
  rw [ha, hb]
  exact kerForm_eq_refForm a b

end Cert.Ncm

end
-- ==== Proof.Body.lean ====
/-
  What the kernel body computes for one block of 1024 query rows, read at one entry (p, q) of its 1024 × 1024 result:
  from the temperature vector, the block of query rows, the (already scaled) centroid rows and the row of quartered
  centroid norms it loads, the entry is 0 - √max(|a|²/4 + csq(q) + (-a/2)·cs(q), 0) with a the p-th query row divided
  by the temperature. The layout steps — the temperature kept as a row and repeated down the block, the row sums kept as a
  column and repeated along the lanes, the norm row repeated down the block — each read one operand entry; the lane sum
  and the matrix product read as plain sums over the 64 features.
-/
import proofs.«116002_j65549790871957_2_alg».proof.Proof.Gen.KernelIdeal.Skeleton
import proofs.«116002_j65549790871957_2_alg».proof.Proof.LibKeepdims
import proofs.«116002_j65549790871957_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Ncm.Body

open Cert.KernelIdeal Cert.KernelIdeal.Gen Idealize.ShloMosaic Idealize.ShloMosaic.ValueIdx

/-- The block of query rows divided by the temperature row. -/
abbrev scaledBlock (v0 : FVec Ideal S64 .f32) (v1 : FVec Ideal S1024x64 .f32) : FVec Ideal S1024x64 .f32 :=
  divf (F := Ideal) v1 (broadcastTo S1024x64 (shapeCast S1x64 v0 shapeCasts_S64_S1x64) broadcasts_S1x64_S1024x64)

/-- At (p, k) it is the p-th row's k-th feature over the k-th temperature. -/
theorem scaledBlock_apply (v0 : FVec Ideal S64 .f32) (v1 : FVec Ideal S1024x64 .f32) (p : Fin 1024) (k : Fin 64) :
    scaledBlock v0 v1 (ix2 p k) = scaled v1 v0 p k := by
  show Ideal.div (v1 (ix2 p k)) (broadcastTo S1024x64 (shapeCast S1x64 v0 shapeCasts_S64_S1x64) broadcasts_S1x64_S1024x64 (ix2 p k)) = _
  rw [broadcastTo_1b_ab_apply, shapeCast_a_1a_apply]
  rfl

/-- A lane sum of a 1024 × 64 block read at row p: the sum of that row. -/
theorem laneSum_apply (w : FVec Ideal S1024x64 .f32) (hφ : FKind.Formats .f32)
    (hacc : (0x00000000#32 : BitVec 32) = 0x00000000#32) (p : Fin 1024) :
    multiReduction .add [1] S1024 w 0x00000000#32 reduces_S1024x64_S1024 hφ hacc (ix1 p) = ∑ k : Fin 64, w (ix2 p k) := by
  refine (Ideal.multiReduction_add_single w 0x00000000#32 reduces_S1024x64_S1024 hφ hacc (ix1 p)).trans ?_
  refine Finset.sum_congr rfl fun k _ => congrArg w (funext fun a => Fin.ext ?_)
  match a with
  | ⟨0, _⟩ => rfl
  | ⟨1, _⟩ => rfl

/-- The quartered squared norm of each scaled query row, kept as a column and repeated along the 1024 lanes, at (p, q). -/
theorem normCol_apply (v0 : FVec Ideal S64 .f32) (v1 : FVec Ideal S1024x64 .f32) (p q : Fin 1024) :
    broadcastTo S1024x1024
        (mulf (F := Ideal) (broadcast S1024x1 (Scalar.ofBits (F := Ideal) .f32 0x3E800000#32))
          (shapeCast S1024x1
            (multiReduction .add [1] S1024 (mulf (F := Ideal) (scaledBlock v0 v1) (scaledBlock v0 v1)) 0x00000000#32
              reduces_S1024x64_S1024 (.inl rfl) rfl) shapeCasts_S1024_S1024x1))
        broadcasts_S1024x1_S1024x1024 (ix2 p q)
      = Ideal.ofBits .f32 0x3E800000#32 * ∑ k : Fin 64, scaled v1 v0 p k * scaled v1 v0 p k := by
  refine (Cert.LibKeepdims.broadcastTo_a1_ab_apply _ _ p q).trans ?_
  refine congrArg (Ideal.ofBits .f32 0x3E800000#32 * ·) ?_
  refine (Cert.LibKeepdims.shapeCast_a_a1_apply _ _ p 0).trans ?_
  refine (laneSum_apply _ _ _ p).trans ?_
  refine Finset.sum_congr rfl fun k _ => ?_
  show scaledBlock v0 v1 (ix2 p k) * scaledBlock v0 v1 (ix2 p k) = _
  rw [scaledBlock_apply]

/-- The row of centroid norms repeated down the block, at (p, q): its entry q. -/
theorem normRow_apply (v16 : FVec Ideal S1x1024 .f32) (p q : Fin 1024) :
    broadcastTo S1024x1024 (shapeCast S1x1024 v16 shapeCasts_S1x1024_S1x1024) broadcasts_S1x1024_S1024x1024 (ix2 p q)
      = v16 (ix2 (0 : Fin 1) q) := by
  refine (broadcastTo_1b_ab_apply _ _ p q).trans ?_
  rw [shapeCast_self]

/-- Row coordinate of the left operand's index: the output's row. -/
theorem dot_lhs_0 (i : S1024x1024.Idx) (z : dot_S1024x64_S1024x64_S1024x1024_1_1_0_0_n_n.contr.Idx) :
    (dot_S1024x64_S1024x64_S1024x1024_1_1_0_0_n_n.lhsIdx i z 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl

/-- Row coordinate of the right operand's index: the output's column (the right operand is read transposed). -/
theorem dot_rhs_0 (i : S1024x1024.Idx) (z : dot_S1024x64_S1024x64_S1024x1024_1_1_0_0_n_n.contr.Idx) :
    (dot_S1024x64_S1024x64_S1024x1024_1_1_0_0_n_n.rhsIdx i z 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl

/-- The matrix product of a 1024 × 64 block with the transpose of another, into zero, at (p, q): the sum over the 64
    features of the products of row p of the first and row q of the second. -/
theorem dot_apply (l r : FVec Ideal S1024x64 .bf16) (p q : Fin 1024) :
    matmul (F := Ideal) dot_S1024x64_S1024x64_S1024x1024_1_1_0_0_n_n none l r (constant S1024x1024 .f32 0x00000000#32) (ix2 p q)
      = ∑ k : Fin 64, l (ix2 p k) * r (ix2 q k) := by
  refine (Ideal.matmul_constant_zero_apply dot_S1024x64_S1024x64_S1024x1024_1_1_0_0_n_n none l r (ix2 p q)).trans ?_
  rw [← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 p q) ((ValueIdx.contrEquiv1 dot_S1024x64_S1024x64_S1024x1024_1_1_0_0_n_n 64 rfl rfl).symm k) = ix2 p k := funext fun a => Fin.ext (by
    match a with
    | ⟨0, _⟩ => exact dot_lhs_0 _ _
    | ⟨1, _⟩ => exact (dot_S1024x64_S1024x64_S1024x1024_1_1_0_0_n_n.lhsIdx_val_of_single rfl _ _).trans hk)
  have er : dot_S1024x64_S1024x64_S1024x1024_1_1_0_0_n_n.rhsIdx (ix2 p q) ((ValueIdx.contrEquiv1 dot_S1024x64_S1024x64_S1024x1024_1_1_0_0_n_n 64 rfl rfl).symm k) = ix2 q k := funext fun a => Fin.ext (by
    match a with
    | ⟨0, _⟩ => exact dot_rhs_0 _ _
    | ⟨1, _⟩ => exact (dot_S1024x64_S1024x64_S1024x1024_1_1_0_0_n_n.rhsIdx_val_of_single rfl _ _).trans hk)
  rw [el, er]

/-- The cross term: the scaled query rows times minus a half, against the transposed centroid rows, at (p, q). -/
theorem cross_apply (v0 : FVec Ideal S64 .f32) (v1 : FVec Ideal S1024x64 .f32) (v13 : FVec Ideal S1024x64 .bf16) (p q : Fin 1024) :
    matmul (F := Ideal) dot_S1024x64_S1024x64_S1024x1024_1_1_0_0_n_n none
        (truncf .bf16 (mulf (F := Ideal) (broadcast S1024x64 (Scalar.ofBits (F := Ideal) .f32 0xBF000000#32)) (scaledBlock v0 v1)) bitsLt_bf16_f32)
        (shapeCast S1024x64 v13 shapeCasts_S1024x64_S1024x64) (constant S1024x1024 .f32 0x00000000#32) (ix2 p q)
      = ∑ k : Fin 64, (Ideal.ofBits .f32 0xBF000000#32 * scaled v1 v0 p k) * v13 (ix2 q k) := by
  refine (dot_apply _ _ p q).trans ?_
  refine Finset.sum_congr rfl fun k _ => ?_
  rw [shapeCast_self]
  show (Ideal.ofBits .f32 0xBF000000#32 * scaledBlock v0 v1 (ix2 p k)) * v13 (ix2 q k) = _
  rw [scaledBlock_apply]

/-- THE BODY AT AN ENTRY: the stored value at (p, q), from the four loaded blocks. -/
theorem pay_apply (v0 : Vec Ideal S64 .f32) (v1 : Vec Ideal S1024x64 .f32) (v13 : Vec Ideal S1024x64 .bf16)
    (v16 : Vec Ideal S1x1024 .f32) (p q : Fin 1024) :
    k0_pay1 (F := Ideal) v0 v1 v13 v16 (ix2 p q)
      = Ideal.ofBits .f32 0x00000000#32 - Ideal.sqrt (max
          ((Ideal.ofBits .f32 0x3E800000#32 * (∑ k : Fin 64, scaled v1 v0 p k * scaled v1 v0 p k) + v16 (ix2 (0 : Fin 1) q))
            + ∑ k : Fin 64, (Ideal.ofBits .f32 0xBF000000#32 * scaled v1 v0 p k) * v13 (ix2 q k))
          (Ideal.ofBits .f32 0x00000000#32)) := by
  unfold k0_pay1
  refine congrArg (fun z => Ideal.ofBits .f32 0x00000000#32 - Ideal.sqrt (max z (Ideal.ofBits .f32 0x00000000#32))) ?_
  exact congrArg₂ (· + ·) (congrArg₂ (· + ·) (normCol_apply v0 v1 p q) (normRow_apply v16 p q)) (cross_apply v0 v1 v13 p q)

end Cert.Ncm.Body

end
-- ==== Proof.Entry.lean ====
/-
  One entry of one block, against the specification. If the body's four loaded blocks hold, at the places entry (p, q)
  reads them, the temperature, query row n, scaled centroid row q and a quarter of that row's squared norm, then what
  the body stores at (p, q) is the kernel's arrangement of query row n and centroid row q — and on real arrays with no
  zero temperature that is entry (n, q) of the specification.
-/
import proofs.«116002_j65549790871957_2_alg».proof.Proof.Body

noncomputable section

namespace Cert.Ncm.Entry

open Cert.KernelIdeal Cert.KernelIdeal.Gen Idealize.ShloMosaic Idealize.ShloMosaic.ValueIdx

theorem entry_eq (x : (⟨2, ![16384, 64]⟩ : Shape).Idx → EReal) (c : (⟨2, ![1024, 64]⟩ : Shape).Idx → EReal)
    (T : (⟨1, ![64]⟩ : Shape).Idx → EReal) (hx : ∀ i, ∃ r : ℝ, x i = (r : EReal)) (hc : ∀ i, ∃ r : ℝ, c i = (r : EReal))
    (hT : ∀ i, ∃ r : ℝ, T i = (r : EReal)) (hT0 : ∀ i, T i ≠ 0)
    (v0 : Vec Ideal S64 .f32) (v1 : Vec Ideal S1024x64 .f32) (v13 : Vec Ideal S1024x64 .bf16) (v16 : Vec Ideal S1x1024 .f32)
    (n : Fin 16384) (p q : Fin 1024)
    (h0 : ∀ k : Fin 64, v0 (ix1 k) = T (ix1 k)) (h1 : ∀ k : Fin 64, v1 (ix2 p k) = x (ix2 n k))
    (h13 : ∀ k : Fin 64, v13 (ix2 q k) = scaled c T q k)
    (h16 : v16 (ix2 (0 : Fin 1) q) = Ideal.ofBits .f32 0x3E800000#32
      * (Ideal.ofBits .f32 0x00000000#32 + ∑ k : Fin 64, scaled c T q k * scaled c T q k)) :
    k0_pay1 (F := Ideal) v0 v1 v13 v16 (ix2 p q) = G x c T (ix2 n q) := by
  have hs : scaled v1 v0 p = scaled x T n := funext fun k => by
    show Ideal.div (v1 (ix2 p k)) (v0 (ix1 k)) = Ideal.div (x (ix2 n k)) (T (ix1 k))
    rw [h0, h1]
  refine (Body.pay_apply v0 v1 v13 v16 p q).trans ?_
  rw [hs, h16]
  simp only [h13]
  exact kerForm_eq_G x c T hx hc hT hT0 n q

end Cert.Ncm.Entry

end
-- ==== Proof.HostPrefix.lean ====
/-
  The two operands the host prepares before the pallas_call, as the region finds them, read at an entry: the centroid
  rows divided feature by feature by the temperature (the change of format to bf16 is the identity on extended reals),
  and the row of their squared norms times a quarter.
-/
import proofs.«116002_j65549790871957_2_alg».proof.Proof.Gen.KernelIdeal.Frame
import proofs.«116002_j65549790871957_2_alg».proof.Proof.Spec
import Idealize.ShloMosaic.Lib.StableHlo.Run
import Idealize.ShloMosaic.Lib.Pipeline.Value
import Idealize.ShloMosaic.PureOps.Ideal.Laws

noncomputable section

namespace Cert.Ncm.HostPrefix

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

/-- The temperature kept as a row and repeated down 1024 rows, at (q, k): the k-th temperature. -/
theorem tempRows_apply (T : FVec Ideal S64 .f32) (q : Fin 1024) (k : Fin 64) :
    broadcastInDim S1024x64 ![0, 1] bcast_S1x64_S1024x64_0_1 (broadcastInDim S1x64 ![1] bcast_S64_S1x64_1 T) (ix2 q k)
      = T (ix1 k) := by
  refine (broadcastInDim_apply _ bcast_S1x64_S1024x64_0_1 _ (ix2 q k) (ix2 (0 : Fin 1) k) (fun a => match a with
    | ⟨0, _⟩ => by show 0 = if (1 : Nat) = 1 then 0 else q.val; rw [if_pos rfl]
    | ⟨1, _⟩ => by show k.val = if (64 : Nat) = 1 then 0 else k.val; rw [if_neg (by decide)])).trans ?_
  exact broadcastInDim_apply _ bcast_S64_S1x64_1 T (ix2 (0 : Fin 1) k) (ix1 k) (fun a => match a with
    | ⟨0, _⟩ => by show k.val = if (64 : Nat) = 1 then 0 else k.val; rw [if_neg (by decide)])

/-- What the region finds in the scaled-centroid operand. -/
theorem V_cs (c : Dev nD) : (V m c main_v8 : S1024x64.Idx → EReal)
    = truncf (F := Ideal) .bf16 (Host.divf (F := Ideal) (m ((c : Thread nD τ).loc main_arg1))
        (broadcastInDim S1024x64 ![0, 1] bcast_S1x64_S1024x64_0_1 (broadcastInDim S1x64 ![1] bcast_S64_S1x64_1 (m ((c : Thread nD τ).loc main_arg2))))) bitsLt_bf16_f32 := by
  dsimp only [Gen.V, Gen.hostOps0]; after_results

/-- At (q, k): centroid row q's feature k over the k-th temperature. -/
theorem cs_apply (c : Dev nD) (q : Fin 1024) (k : Fin 64) :
    (V m c main_v8 : S1024x64.Idx → EReal) (ix2 q k)
      = scaled (m ((c : Thread nD τ).loc main_arg1)) (m ((c : Thread nD τ).loc main_arg2)) q k := by
  rw [V_cs]
  show Ideal.div _ (broadcastInDim S1024x64 ![0, 1] bcast_S1x64_S1024x64_0_1 (broadcastInDim S1x64 ![1] bcast_S64_S1x64_1 (m ((c : Thread nD τ).loc main_arg2))) (ix2 q k)) = _
  rw [tempRows_apply]
  rfl

/-- What the region finds in the centroid-norm operand. -/
theorem V_csq (c : Dev nD) : (V m c main_v7 : S1x1024.Idx → EReal)
    = broadcastInDim S1x1024 ![1] bcast_S1024_S1x1024_1 (mulf (F := Ideal) (broadcastInDim S1024 ![] bcast_S_S1024 (constant (F := Ideal) S_ .f32 0x3E800000#32))
        (Host.reduceAdd (F := Ideal) (mulf (F := Ideal)
            (Host.divf (F := Ideal) (m ((c : Thread nD τ).loc main_arg1)) (broadcastInDim S1024x64 ![0, 1] bcast_S1x64_S1024x64_0_1 (broadcastInDim S1x64 ![1] bcast_S64_S1x64_1 (m ((c : Thread nD τ).loc main_arg2)))))
            (Host.divf (F := Ideal) (m ((c : Thread nD τ).loc main_arg1)) (broadcastInDim S1024x64 ![0, 1] bcast_S1x64_S1024x64_0_1 (broadcastInDim S1x64 ![1] bcast_S64_S1x64_1 (m ((c : Thread nD τ).loc main_arg2))))))
          (constant (F := Ideal) S_ .f32 0x00000000#32) reducesTo_S1024x64_S1024_d1 h_S_)) := by
  dsimp only [Gen.V, Gen.hostOps0]; after_results

/-- A host sum along the 64 features of a 1024 × 64 array, from an initial value, read at row q. -/
theorem hostRowSum_apply (w : FVec Ideal S1024x64 .f32) (init : EReal) (q : Fin 1024) :
    Ideal.hostReduceAdd reducesTo_S1024x64_S1024_d1 w init (ix1 q) = init + ∑ k : Fin 64, w (ix2 q k) := by
  refine (Ideal.hostReduceAdd_single reducesTo_S1024x64_S1024_d1 (by decide) w init (ix1 q)).trans ?_
  refine congrArg (init + ·) (Finset.sum_congr rfl fun k _ => congrArg w (funext fun a => Fin.ext ?_))
  match a with
  | ⟨0, _⟩ => rfl
  | ⟨1, _⟩ => rfl

/-- At (0, q): a quarter of the squared norm of scaled centroid row q, the sum started from the zero word. -/
theorem csq_apply (c : Dev nD) (q : Fin 1024) :
    (V m c main_v7 : S1x1024.Idx → EReal) (ix2 (0 : Fin 1) q)
      = Ideal.ofBits .f32 0x3E800000#32 * (Ideal.ofBits .f32 0x00000000#32
          + ∑ k : Fin 64, scaled (m ((c : Thread nD τ).loc main_arg1)) (m ((c : Thread nD τ).loc main_arg2)) q k
              * scaled (m ((c : Thread nD τ).loc main_arg1)) (m ((c : Thread nD τ).loc main_arg2)) q k) := by
  rw [V_csq]
  refine (broadcastInDim_apply _ bcast_S1024_S1x1024_1 _ (ix2 (0 : Fin 1) q) (ix1 q) (fun a => match a with
    | ⟨0, _⟩ => by show q.val = if (1024 : Nat) = 1 then 0 else q.val; rw [if_neg (by decide)])).trans ?_
  show broadcastInDim S1024 ![] bcast_S_S1024 (constant (F := Ideal) S_ .f32 0x3E800000#32) (ix1 q) * Ideal.hostReduceAdd reducesTo_S1024x64_S1024_d1 _ _ (ix1 q) = _
  rw [broadcastInDim_apply _ bcast_S_S1024 _ (ix1 q) ix0 (fun a => a.elim0)]
  refine congrArg₂ (· * ·) rfl ((hostRowSum_apply _ _ q).trans (congrArg₂ (· + ·) rfl (Finset.sum_congr rfl fun k _ => ?_)))
  show Ideal.div _ (broadcastInDim S1024x64 ![0, 1] bcast_S1x64_S1024x64_0_1 (broadcastInDim S1x64 ![1] bcast_S64_S1x64_1 (m ((c : Thread nD τ).loc main_arg2))) (ix2 q k))
      * Ideal.div _ (broadcastInDim S1024x64 ![0, 1] bcast_S1x64_S1024x64_0_1 (broadcastInDim S1x64 ![1] bcast_S64_S1x64_1 (m ((c : Thread nD τ).loc main_arg2))) (ix2 q k)) = _
  rw [tempRows_apply]
  rfl

end Cert.Ncm.HostPrefix

end
-- ==== Proof.Finite.lean ====
/-
  What the precondition says of the three argument arrays: every entry of the queries, of the centroids and of the
  temperature is a real number (its absolute value lies strictly below +∞), and no temperature is zero. These are the
  two facts under which dividing by the temperature stays inside the reals, where the specification's law holds.
-/
import proofs.«116002_j65549790871957_2_alg».proof.Pre_finite_inputs
import proofs.«116002_j65549790871957_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Ncm.Finite

open Idealize.ShloMosaic Idealize.ShloMosaic.ValueIdx Cert.Pre_finite_inputs

instance : Subsingleton S_.Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- A strict comparison that answered 1 holds. -/
theorem lt_of_cmp {a b : EReal} (h : Ideal.cmp .olt a b = 1#1) : a < b := by
  unfold Ideal.cmp at h
  by_contra hn
  simp [hn] at h

/-- An inequality test that answered 1 holds. -/
theorem ne_of_cmp {a b : EReal} (h : Ideal.cmp .une a b = 1#1) : a ≠ b := by
  unfold Ideal.cmp at h
  intro hn
  simp [hn] at h

/-- An extended real whose absolute value is below +∞ is a real number. -/
theorem real_of_abs_lt_top {a : EReal} (h : max a (-a) < ⊤) : ∃ r : ℝ, a = (r : EReal) := by
  have h1 : a ≠ ⊤ := fun e => by rw [e] at h; simp at h
  have h2 : a ≠ ⊥ := fun e => by rw [e] at h; simp at h
  exact ⟨a.toReal, (EReal.coe_toReal h1 h2).symm⟩

/-- `jnp.all(|x| < inf)` answering 1 makes every entry of `x` a real number. -/
theorem real_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) := by
  have h := Host.reduce_andi_all _ _ hr hu ix0 e i
  rw [cmpf_apply, broadcastInDim_apply _ hb _ i ix0 (fun a => a.elim0), constant_apply, ofBits_inf] at h
  exact real_of_abs_lt_top (lt_of_cmp h)

/-- `jnp.all(T != 0)` answering 1 makes every entry of `T` different from zero. -/
theorem ne_zero_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .une x (broadcastInDim s ![] hb (constant S_ .f32 0x00000000#32)))
      (constantI S_ 1 1#1) hr hu ix0 = 1#1) (i : s.Idx) : x i ≠ 0 := by
  have h := Host.reduce_andi_all _ _ hr hu ix0 e i
  rw [cmpf_apply, broadcastInDim_apply _ hb _ i ix0 (fun a => a.elim0), constant_apply, Ideal.ofBits_zero_f32] at h
  exact ne_of_cmp h

/-- THE PRECONDITION, DECODED: all three arrays real, no temperature zero. -/
theorem decode (x : FVec Ideal S16384x64 .f32) (c : FVec Ideal S1024x64 .f32) (T : FVec Ideal S64 .f32)
    (h : Cert.Pre_finite_inputs.fn (F := Ideal) x c T = fun _ => 1#1) :
    (∀ i, ∃ r : ℝ, x i = (r : EReal)) ∧ (∀ i, ∃ r : ℝ, c i = (r : EReal)) ∧ (∀ i, ∃ r : ℝ, T i = (r : EReal)) ∧ ∀ i, T i ≠ 0 := by
  have h0 := congrFun h ix0
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨h1, h2⟩ := IntOp.andi_eq_one.mp h12
  exact ⟨real_of_all x _ _ _ h1, real_of_all c _ _ _ h2, real_of_all T _ _ _ h3, ne_zero_of_all T _ _ _ h4⟩

end Cert.Ncm.Finite

end
-- ==== Proof.Blocks.lean ====
/-
  From blocks to the array. Grid point t works on query rows 1024·t … 1024·t + 1023: its query block is those rows,
  its other three operands are whole arrays (the temperature, the scaled centroids, the quartered centroid norms), and
  it writes rows 1024·t … of the result. So entry (p, q) of what point t writes back is entry (1024·t + p, q) of the
  specification; the sixteen row blocks cover the 16384 rows; hence the result array after the run is the
  specification of the three argument arrays.
-/
import proofs.«116002_j65549790871957_2_alg».proof.Defs
import proofs.«116002_j65549790871957_2_alg».proof.Proof.Gen.KernelIdeal.Value
import proofs.«116002_j65549790871957_2_alg».proof.Proof.Entry
import proofs.«116002_j65549790871957_2_alg».proof.Proof.HostPrefix
import proofs.«116002_j65549790871957_2_alg».proof.Proof.Finite
import Idealize.ShloMosaic.Lib.Pipeline.Value

noncomputable section

namespace Cert.Ncm.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The specification of the three argument arrays on core c. -/
abbrev spec (c : Dev nD) : S16384x1024.Idx → EReal :=
  G (m ((c : Thread nD τ).loc main_arg0)) (m ((c : Thread nD τ).loc main_arg1)) (m ((c : Thread nD τ).loc main_arg2))

/-- The printed index maps, decided over the sixteen grid points: the query window and the result window sit at row
    block t, every other coordinate of every window is block 0. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ t.val < 16 :=
  (by decide +kernel : ∀ t : Fin grid0.N, _)

/-- The query block at point t, at (p, k): query row 1024·t + p, feature k. -/
theorem iblk_x (c : Dev nD) (t : Fin cfg0.N) (p : Fin 1024) (k : Fin 64) (n : Fin 16384) (hn : n.val = 1024 * t.val + p.val) :
    (iblk m c 0 t : Vec Ideal S1024x64 .f32) (ix2 p k)
      = (m ((c : Thread nD τ).loc main_arg0) : S16384x64.Idx → EReal) (ix2 n k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = n.val; omega
  | ⟨1, _⟩ => show win0_0.index t (1 : Fin 2) * 64 + 1 * k.val = k.val; omega

/-- The temperature block at any point is the temperature. -/
theorem iblk_T (c : Dev nD) (t : Fin cfg0.N) (k : Fin 64) :
    (iblk m c 1 t : Vec Ideal S64 .f32) (ix1 k) = (m ((c : Thread nD τ).loc main_arg2) : S64.Idx → EReal) (ix1 k) := by
  obtain ⟨-, -, e2, -⟩ := idx_facts t
  unfold iblk
  rw [View.read_apply]
  show V m c main_arg2 _ = _
  rw [V_main_arg2]
  refine congrArg _ (funext fun a => Fin.ext ?_)
  match a with
  | ⟨0, _⟩ => show win0_1.index t (0 : Fin 1) * 64 + 1 * k.val = k.val; omega

/-- The scaled-centroid block at any point is the whole operand. -/
theorem iblk_cs (c : Dev nD) (t : Fin cfg0.N) (q : Fin 1024) (k : Fin 64) :
    (iblk m c 2 t : Vec Ideal S1024x64 .bf16) (ix2 q k) = (V m c main_v8 : S1024x64.Idx → EReal) (ix2 q k) := by
  obtain ⟨-, -, -, e3, e4, -⟩ := idx_facts t
  unfold iblk
  rw [View.read_apply]
  show V m c main_v8 _ = _
  refine congrArg _ (funext fun a => Fin.ext ?_)
  match a with
  | ⟨0, _⟩ => show win0_2.index t (0 : Fin 2) * 1024 + 1 * q.val = q.val; omega
  | ⟨1, _⟩ => show win0_2.index t (1 : Fin 2) * 64 + 1 * k.val = k.val; omega

/-- The centroid-norm block at any point is the whole operand. -/
theorem iblk_csq (c : Dev nD) (t : Fin cfg0.N) (q : Fin 1024) :
    (iblk m c 3 t : Vec Ideal S1x1024 .f32) (ix2 (0 : Fin 1) q) = (V m c main_v7 : S1x1024.Idx → EReal) (ix2 (0 : Fin 1) q) := by
  obtain ⟨-, -, -, -, -, e5, e6, -⟩ := idx_facts t
  unfold iblk
  rw [View.read_apply]
  show V m c main_v7 _ = _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

/-- WHAT POINT t WRITES BACK is block t of the specification, under the precondition. -/
theorem flushed_eq (hpre : Cert.Pre_KernelIdeal m) (c : Dev nD) (t : Fin cfg0.N) :
    (dats m 0 c).flushed 4 t = ((cfg0.win 4).blk t).view.read (Elt Ideal) (spec m c) := by
  obtain ⟨hx, hc, hT, hT0⟩ := Finite.decode _ _ _ (hpre c)
  rw [Value.flushed4]
  unfold out0_4
  rw [View.canon_unit_zero hz2]
  simp only [View.ld_unit_zero (S := S64) hz1, View.ld_unit_zero (S := S1024x64) hz2, View.ld_unit_zero (S := S1x1024) hz2]
  funext y
  obtain ⟨p, q, rfl⟩ : ∃ (p q : Fin 1024), y = ix2 p q := ⟨y 0, y 1, eq_ix2 y⟩
  obtain ⟨-, -, -, -, -, -, -, e7, e8, ht⟩ := idx_facts t
  have hn : 1024 * t.val + p.val < 16384 := by have := p.isLt; omega
  show k0_pay1 (F := Ideal) (iblk m c 1 t) (iblk m c 0 t) (iblk m c 2 t) (iblk m c 3 t) (ix2 p q)
    = spec m c (((cfg0.win 4).blk t).view.emb (ix2 p q))
  have hemb : ((cfg0.win 4).blk t).view.emb (ix2 p q) = ix2 (⟨1024 * t.val + p.val, hn⟩ : Fin 16384) q :=
    funext fun a => Fin.ext (by
      match a with
      | ⟨0, _⟩ => show win0_4.index t (0 : Fin 2) * 1024 + 1 * p.val = 1024 * t.val + p.val; omega
      | ⟨1, _⟩ => show win0_4.index t (1 : Fin 2) * 1024 + 1 * q.val = q.val; omega)
  rw [hemb]
  exact Entry.entry_eq _ _ _ hx hc hT hT0 (iblk m c 1 t) (iblk m c 0 t) (iblk m c 2 t) (iblk m c 3 t) ⟨_, hn⟩ p q
    (fun k => iblk_T m c t k) (fun k => iblk_x m c t p k ⟨_, hn⟩ rfl)
    (fun k => (iblk_cs m c t q k).trans (HostPrefix.cs_apply m c q k))
    ((iblk_csq m c t q).trans (HostPrefix.csq_apply m c q))

/-- An index of the result is in point t's block iff each coordinate is in the block's range on its axis. -/
theorem mem_blk (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v9).slice (win0_4.rect t)).set ↔ _
  rw [View.set_slice_whole, Rect.mem_set_unit]
  exact Iff.rfl

/-- Row r of the result lies in the block of point r / 1024. -/
theorem cover (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 16 := N_0
  have ht : (i 0).val / 1024 < cfg0.N := by rw [hN]; omega
  obtain ⟨-, -, -, -, -, -, -, e7, e8, -⟩ := idx_facts ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e7]; show (i 0).val / 1024 * 1024 ≤ (i 0).val ∧ (i 0).val < (i 0).val / 1024 * 1024 + 1024; omega
  | ⟨1, _⟩ =>
    show win0_4.index ⟨(i 0).val / 1024, ht⟩ (1 : Fin 2) * 1024 ≤ (i 1).val ∧ (i 1).val < win0_4.index ⟨(i 0).val / 1024, ht⟩ (1 : Fin 2) * 1024 + 1024
    rw [e8]; omega

/-- THE RESULT ARRAY after the run is the specification. -/
theorem final (hpre : Cert.Pre_KernelIdeal m) (c : Dev nD) : (dats m 0 c).arrAt 4 cfg0.N = spec m c :=
  (dats m 0 c).arrAt_eq_of_cover 4 (spec m c) (fun t _ => flushed_eq m hpre c t) cover

/-- The run, read: the result array at the specification of the arguments, the arguments unchanged. -/
theorem run (hpre : Cert.Pre_KernelIdeal m) : θ_run defs (onTc (τ := τ) (main (F := Ideal))) ⟨m, fun _ => 0, ρ⟩ fun r => ∀ c : Dev nD,
      r.2.mem ((c : Thread nD τ).loc main_v9) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hpre c), (h c).2⟩) (Value.run_blocks m ρ)

end Cert.Ncm.Blocks

end
-- ==== Proof.RefSpec.lean ====
/-
  The reference computes the specification: read one entry (n, j) of its result through its operations, the two
  divisions by the broadcast temperature give the scaled query row n and the scaled centroid row j, the two host sums
  their squared norms, the dot_general their inner product, and what follows — sum, minus twice the product, clip at
  zero, root, negate, halve — is the specification's arrangement word for word.
-/
import proofs.«116002_j65549790871957_2_alg».proof.Proof.Gen.ReferenceIdeal.Read
import proofs.«116002_j65549790871957_2_alg».proof.Proof.Spec

noncomputable section

namespace Cert.Ncm.Ref

open Cert.ReferenceIdeal Cert.ReferenceIdeal.Read Idealize.ShloMosaic Idealize.ShloMosaic.ValueIdx

variable (x0 : (⟨S16384x64, .f32⟩ : BufTy).Contents (Elt Ideal)) (x1 : (⟨S1024x64, .f32⟩ : BufTy).Contents (Elt Ideal))
  (x2 : (⟨S64, .f32⟩ : BufTy).Contents (Elt Ideal))

/-- The queries over the broadcast temperature, at (n, k). -/
theorem scaled_x (n : Fin 16384) (k : Fin 64) : val_main_v2 (F := Ideal) x0 x2 (ix2 n k) = scaled x0 x2 n k := by
  rw [val_main_v2_apply, val_main_v1_apply, val_main_v0_apply]
  have e : idx_main_v0 (idx_main_v1 (ix2 n k)) = ix1 k := funext fun a => Fin.ext (by match a with | ⟨0, _⟩ => rfl)
  rw [e]; rfl

/-- The centroids over the broadcast temperature, at (j, k). -/
theorem scaled_c (j : Fin 1024) (k : Fin 64) : val_main_v5 (F := Ideal) x1 x2 (ix2 j k) = scaled x1 x2 j k := by
  rw [val_main_v5_apply, val_main_v4_apply, val_main_v3_apply]
  have e : idx_main_v3 (idx_main_v4 (ix2 j k)) = ix1 k := funext fun a => Fin.ext (by match a with | ⟨0, _⟩ => rfl)
  rw [e]; rfl

/-- The query norms, kept as a column and broadcast, at (n, j): the squared norm of scaled row n. -/
theorem norm_x (n : Fin 16384) (j : Fin 1024) :
    val_main_v12 (F := Ideal) x0 x2 (ix2 n j)
      = Ideal.ofBits .f32 0x00000000#32 + ∑ k : Fin 64, scaled x0 x2 n k * scaled x0 x2 n k := by
  rw [val_main_v12_apply, val_main_v8_apply, val_main_v7_apply]
  refine congrArg₂ (· + ·) rfl (Finset.sum_congr rfl fun k _ => ?_)
  have e : idx_main_v7 (idx_main_v8 (idx_main_v12 (ix2 n j))) k = ix2 n k :=
    funext fun a => Fin.ext (by match a with | ⟨0, _⟩ => rfl | ⟨1, _⟩ => rfl)
  rw [e, val_main_v6_apply, scaled_x]; rfl

/-- The centroid norms, kept as a row and broadcast, at (n, j): the squared norm of scaled row j. -/
theorem norm_c (n : Fin 16384) (j : Fin 1024) :
    val_main_v13 (F := Ideal) x1 x2 (ix2 n j)
      = Ideal.ofBits .f32 0x00000000#32 + ∑ k : Fin 64, scaled x1 x2 j k * scaled x1 x2 j k := by
  rw [val_main_v13_apply, val_main_v11_apply, val_main_v10_apply]
  refine congrArg₂ (· + ·) rfl (Finset.sum_congr rfl fun k _ => ?_)
  have e : idx_main_v10 (idx_main_v11 (idx_main_v13 (ix2 n j))) k = ix2 j k :=
    funext fun a => Fin.ext (by match a with | ⟨0, _⟩ => rfl | ⟨1, _⟩ => rfl)
  rw [e, val_main_v9_apply, scaled_c]; rfl

/-- The product of the scaled queries with the transposed scaled centroids, at (n, j): the two rows' inner product. -/
theorem inner (n : Fin 16384) (j : Fin 1024) :
    val_main_v15 (F := Ideal) x0 x1 x2 (ix2 n j) = ∑ k : Fin 64, scaled x0 x2 n k * scaled x1 x2 j k := by
  rw [val_main_v15_apply]
  refine Finset.sum_congr rfl fun k _ => ?_
  have el : lidx_main_v15 (ix2 n j) k = ix2 n k :=
    funext fun a => Fin.ext (by match a with | ⟨0, _⟩ => rfl | ⟨1, _⟩ => rfl)
  have er : ridx_main_v15 (ix2 n j) k = ix2 j k :=
    funext fun a => Fin.ext (by match a with | ⟨0, _⟩ => rfl | ⟨1, _⟩ => rfl)
  rw [el, er, scaled_x, scaled_c]

/-- THE REFERENCE IS THE SPECIFICATION. -/
theorem result_eq : val_main_v24 (F := Ideal) x0 x1 x2 = G x0 x1 x2 := by
  funext i
  obtain ⟨n, j, rfl⟩ : ∃ (n : Fin 16384) (j : Fin 1024), i = ix2 n j := ⟨i 0, i 1, eq_ix2 i⟩
  rw [val_main_v24_apply, val_main_v22_apply, val_main_v21_apply, val_main_v20_apply, val_main_v18_apply,
    val_main_v14_apply, val_main_v17_apply, norm_x, norm_c, inner, val_main_v16_apply, val_main_v19_apply,
    val_main_v23_apply]
  rfl

end Cert.Ncm.Ref

end
-- ==== Proof.lean ====
/-
  Nearest-centroid scores: for 16384 query rows x, 1024 centroid rows c and a temperature vector T over the 64
  features, entry (n, j) of the result is minus half the Euclidean distance between x[n]/T and c[j]/T, the squared
  distance expanded as |a|² + |b|² - 2 a·b and clipped at zero before the root.

  The reference computes that expansion as written. The kernel divides the centroids by T and sums their squares on
  the host, then, sixteen blocks of 1024 query rows at a time, forms a QUARTER of the squared distance — a quarter of
  each squared norm, the cross term from the query row scaled by minus a half — and returns 0 - √max(·, 0), which is
  already half the distance. Changes of float format are the identity on the extended reals, and the body's lane sum
  and matrix product are the same plain sums over the 64 features as the reference's.

  The two arrangements agree on real rows: a positive factor 1/4 passes through the clip, and √(s/4) = √s / 2
  (Proof/Spec.lean). They do not agree on every extended real: if two temperatures are zero, a query row and a centroid
  row can become infinite with cross products of opposite sign, and the two programs then add infinities of opposite
  sign in different places (one clips -∞ to 0, the other takes the root of +∞). The precondition therefore asks, besides
  finite inputs, that no temperature is zero — outside that domain the reference itself is infinite or undefined at
  every entry — and under it every scaled row is a row of real numbers (Proof/Finite.lean, Proof/Spec.lean).

  The modules: Proof/Spec.lean (the specification G and the law), Proof/RefSpec.lean (the reference's result is G),
  Proof/Body.lean and Proof/Entry.lean (one entry of one block the body stores), Proof/HostPrefix.lean (the two operands
  the host prepares), Proof/Blocks.lean (block t is rows 1024·t … of G; the blocks cover the result), and the claims here.
  The three frame claims are the generated frames (the reference's is its generated run with the result dropped); the
  idealization rewrote nothing, so its claim is trivial.
-/
import proofs.«116002_j65549790871957_2_alg».proof.Defs
import proofs.«116002_j65549790871957_2_alg».proof.Proof.Gen.Kernel
import proofs.«116002_j65549790871957_2_alg».proof.Proof.Gen.Kernel.Skeleton
import proofs.«116002_j65549790871957_2_alg».proof.Proof.Gen.Kernel.Launch
import proofs.«116002_j65549790871957_2_alg».proof.Proof.Gen.Kernel.Points
import proofs.«116002_j65549790871957_2_alg».proof.Proof.Gen.Kernel.Frame
import proofs.«116002_j65549790871957_2_alg».proof.Proof.Gen.KernelIdeal
import proofs.«116002_j65549790871957_2_alg».proof.Proof.Gen.KernelIdeal.Skeleton
import proofs.«116002_j65549790871957_2_alg».proof.Proof.Gen.KernelIdeal.Launch
import proofs.«116002_j65549790871957_2_alg».proof.Proof.Gen.KernelIdeal.Points
import proofs.«116002_j65549790871957_2_alg».proof.Proof.Gen.KernelIdeal.Frame
import proofs.«116002_j65549790871957_2_alg».proof.Proof.Gen.ReferenceIdeal
import proofs.«116002_j65549790871957_2_alg».proof.Proof.Gen.Pre_finite_inputs
import proofs.«116002_j65549790871957_2_alg».proof.Proof.Gen.KernelIdeal.Value
import proofs.«116002_j65549790871957_2_alg».proof.Proof.Gen.ReferenceIdeal.Run
import proofs.«116002_j65549790871957_2_alg».proof.Proof.Gen.ReferenceIdeal.Read
import proofs.«116002_j65549790871957_2_alg».proof.Proof.Blocks
import proofs.«116002_j65549790871957_2_alg».proof.Proof.RefSpec
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- Both programs end with the specification of the (agreeing) arguments in their result arrays: the kernel's blocks
    under the precondition, the reference's operations unconditionally. -/
theorem algebraic : Cert.algebraic_KernelIdeal_ReferenceIdeal := by
  intro m ρ m' ρ' hpre hagree
  refine ⟨fun c => Cert.Ncm.Blocks.spec m c, Cert.Ncm.Blocks.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.Ncm.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
